-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x32x128 : Shape := ⟨3, ![128, 32, 128]⟩
abbrev S128x256x128 : Shape := ⟨3, ![128, 256, 128]⟩
abbrev S_ : Shape := ⟨0, ![]⟩

class Facts : Prop where
  bcast_S_S128x32x128 : S_.BroadcastsInDim S128x32x128 (![] : Fin 0 → Fin S128x32x128.rank)
  reducesTo_S128x32x128_S_d0_1_2 : S128x32x128.ReducesTo [0, 1, 2] S_
  h_S_ : 0 < S_.numel
  bcast_S_S128x256x128 : S_.BroadcastsInDim S128x256x128 (![] : Fin 0 → Fin S128x256x128.rank)
  reducesTo_S128x256x128_S_d0_1_2 : S128x256x128.ReducesTo [0, 1, 2] S_

variable [Facts]

def fn {F : FTy → Type} [FloatOps F] (main_arg0 : FVec F S128x32x128 .f32) (main_arg1 : FVec F S128x256x128 .f32) : IVec S_ 1 :=
  let main_v0 : FVec F S128x32x128 .f32 := Host.absf main_arg0
  let main_cst : FVec F S_ .f32 := constant S_ .f32 0x7F800000#32
  let main_v1 : FVec F S128x32x128 .f32 := broadcastInDim S128x32x128 ![] bcast_S_S128x32x128 main_cst
  let main_v2 : IVec S128x32x128 1 := cmpf .olt main_v0 main_v1
  let main_c : IVec S_ 1 := constantI S_ 1 1#1
  let main_v3 : IVec S_ 1 := (fun x v => Host.reduce IntOp.andi x v reducesTo_S128x32x128_S_d0_1_2 h_S_) main_v2 main_c
  let main_v4 : FVec F S128x256x128 .f32 := Host.absf main_arg1
  let main_cst_0 : FVec F S_ .f32 := constant S_ .f32 0x7F800000#32
  let main_v5 : FVec F S128x256x128 .f32 := broadcastInDim S128x256x128 ![] bcast_S_S128x256x128 main_cst_0
  let main_v6 : IVec S128x256x128 1 := cmpf .olt main_v4 main_v5
  let main_c_1 : IVec S_ 1 := constantI S_ 1 1#1
  let main_v7 : IVec S_ 1 := (fun x v => Host.reduce IntOp.andi x v reducesTo_S128x256x128_S_d0_1_2 h_S_) main_v6 main_c_1
  let main_v8 : IVec S_ 1 := andi main_v3 main_v7
  main_v8
-- ==== Kernel.lean ====
abbrev S128x32x128 : Shape := ⟨3, ![128, 32, 128]⟩
abbrev S128x256x128 : Shape := ⟨3, ![128, 256, 128]⟩
abbrev S128x128 : Shape := ⟨2, ![128, 128]⟩
abbrev S16x256x128 : Shape := ⟨3, ![16, 256, 128]⟩
abbrev S16x128 : Shape := ⟨2, ![16, 128]⟩
abbrev S4096x128 : Shape := ⟨2, ![4096, 128]⟩
abbrev S1x256x128 : Shape := ⟨3, ![1, 256, 128]⟩
abbrev S256x128 : Shape := ⟨2, ![256, 128]⟩
abbrev S128x256 : Shape := ⟨2, ![128, 256]⟩
abbrev S4096x256 : Shape := ⟨2, ![4096, 256]⟩
abbrev S128x32x256 : Shape := ⟨3, ![128, 32, 256]⟩
abbrev S128x32 : Shape := ⟨2, ![128, 32]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 51
  | .vmem => 5
  | .smem => 0
  | _ => 0

abbrev bufTy : (tb : Table) → Fin (tcTables nBuf tb) → BufTy
  | .hbm, ⟨0, _⟩ => ⟨S128x32x128, .f32⟩
  | .hbm, ⟨1, _⟩ => ⟨S128x256x128, .f32⟩
  | .hbm, ⟨2, _⟩ => ⟨S128x128, .f32⟩
  | .hbm, ⟨3, _⟩ => ⟨S128x128, .f32⟩
  | .hbm, ⟨4, _⟩ => ⟨S128, .i32⟩
  | .hbm, ⟨5, _⟩ => ⟨S_, .f32⟩
  | .hbm, ⟨6, _⟩ => ⟨S128x128, .f32⟩
  | .hbm, ⟨7, _⟩ => ⟨S128x128, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S128x1, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S_, .f32⟩
  | .hbm, ⟨18, _⟩ => ⟨S128, .f32⟩
  | .hbm, ⟨19, _⟩ => ⟨S128x1, .f32⟩
  | .hbm, ⟨20, _⟩ => ⟨S128x1, .f32⟩
  | .hbm, ⟨21, _⟩ => ⟨S128x128, .f32⟩
  | .hbm, ⟨22, _⟩ => ⟨S128x128, .f32⟩
  | .hbm, ⟨23, _⟩ => ⟨S128x1, .i32⟩
  | .hbm, ⟨24, _⟩ => ⟨S_, .i32⟩
  | .hbm, ⟨25, _⟩ => ⟨S128x1, .i32⟩
  | .hbm, ⟨26, _⟩ => ⟨S128x1, .i1⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S128x1, .i32⟩
  | .hbm, ⟨31, _⟩ => ⟨S128x1x1, .i32⟩
  | .hbm, ⟨32, _⟩ => ⟨S1, .i32⟩
  | .hbm, ⟨33, _⟩ => ⟨S_, .i32⟩
  | .hbm, ⟨34, _⟩ => ⟨S128x1x1, .i32⟩
  | .hbm, ⟨35, _⟩ => ⟨S128x1x1, .i1⟩
  | .hbm, ⟨36, _⟩ => ⟨S1x1x1, .i32⟩
  | .hbm, ⟨37, _⟩ => ⟨S128x1x1, .i32⟩
  | .hbm, ⟨38, _⟩ => ⟨S128x1x1, .i1⟩
  | .hbm, ⟨39, _⟩ => ⟨S128x1x1, .i1⟩
  | .hbm, ⟨40, _⟩ => ⟨S_, .i1⟩
  | .hbm, ⟨41, _⟩ => ⟨S128x1, .i1⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S128x32x128, .f32⟩
  | .local _ .vmem, ⟨1, _⟩ => ⟨S16x256x128, .f32⟩
  | .local _ .vmem, ⟨2, _⟩ => ⟨S16x256x128, .f32⟩
  | .local _ .vmem, ⟨3, _⟩ => ⟨S16x128, .f32⟩
  | .local _ .vmem, ⟨4, _⟩ => ⟨S16x128, .f32⟩
  | _, _ => ⟨S128x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v5 : Ref sig .tc := ⟨.hbm, 22, rfl⟩
abbrev main_v6 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v7 : Ref sig .tc := ⟨.hbm, 45, rfl⟩
abbrev main_cst_0 : Ref sig .tc := ⟨.hbm, 46, rfl⟩
abbrev main_v8 : Ref sig .tc := ⟨.hbm, 47, rfl⟩
abbrev main_cst_1 : Ref sig .tc := ⟨.hbm, 48, rfl⟩
abbrev main_v9 : Ref sig .tc := ⟨.hbm, 49, rfl⟩
abbrev main_v10 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x32x128_S128x32x128_0_0_0 : ∀ a, (![0, 0, 0] : Fin 3 → Nat) a + S128x32x128.size a ≤ S128x32x128.size a
  h_S128x32x128 : 0 < S128x32x128.numel
  bitsLt_bf16_f32 : FTy.bits .bf16 < FTy.bits .f32
  shapeCasts_S128x32x128_S4096x128 : S128x32x128.ShapeCasts S4096x128
  inb_S16x256x128_S1x256x128_0_0_0 : ∀ a, (![0, 0, 0] : Fin 3 → Nat) a + S1x256x128.size a ≤ S16x256x128.size a
  h_S1x256x128 : 0 < S1x256x128.numel
  shapeCasts_S1x256x128_S256x128 : S1x256x128.ShapeCasts S256x128
  transposes_S256x128_p1_0_S128x256 : S256x128.Transposes [1, 0] S128x256
  shapeCasts_S4096x256_S128x32x256 : S4096x256.ShapeCasts S128x32x256
  reduces_S128x32x256_S128x32 : S128x32x256.Reduces [2] S128x32
  reduces_S128x32_S128 : S128x32.Reduces [1] S128
  shapeCasts_S128_S1x128 : S128.ShapeCasts S1x128
  inb_S16x256x128_S1x256x128_1_0_0 : ∀ a, (![1, 0, 0] : Fin 3 → Nat) a + S1x256x128.size a ≤ S16x256x128.size a
  inb_S16x256x128_S1x256x128_2_0_0 : ∀ a, (![2, 0, 0] : Fin 3 → Nat) a + S1x256x128.size a ≤ S16x256x128.size a
  inb_S16x256x128_S1x256x128_3_0_0 : ∀ a, (![3, 0, 0] : Fin 3 → Nat) a + S1x256x128.size a ≤ S16x256x128.size a
  inb_S16x256x128_S1x256x128_4_0_0 : ∀ a, (![4, 0, 0] : Fin 3 → Nat) a + S1x256x128.size a ≤ S16x256x128.size a
  inb_S16x256x128_S1x256x128_5_0_0 : ∀ a, (![5, 0, 0] : Fin 3 → Nat) a + S1x256x128.size a ≤ S16x256x128.size a
  inb_S16x256x128_S1x256x128_6_0_0 : ∀ a, (![6, 0, 0] : Fin 3 → Nat) a + S1x256x128.size a ≤ S16x256x128.size a
  inb_S16x256x128_S1x256x128_7_0_0 : ∀ a, (![7, 0, 0] : Fin 3 → Nat) a + S1x256x128.size a ≤ S16x256x128.size a
  inb_S16x256x128_S1x256x128_8_0_0 : ∀ a, (![8, 0, 0] : Fin 3 → Nat) a + S1x256x128.size a ≤ S16x256x128.size a
  inb_S16x256x128_S1x256x128_9_0_0 : ∀ a, (![9, 0, 0] : Fin 3 → Nat) a + S1x256x128.size a ≤ S16x256x128.size a
  inb_S16x256x128_S1x256x128_10_0_0 : ∀ a, (![10, 0, 0] : Fin 3 → Nat) a + S1x256x128.size a ≤ S16x256x128.size a
  inb_S16x256x128_S1x256x128_11_0_0 : ∀ a, (![11, 0, 0] : Fin 3 → Nat) a + S1x256x128.size a ≤ S16x256x128.size a
  inb_S16x256x128_S1x256x128_12_0_0 : ∀ a, (![12, 0, 0] : Fin 3 → Nat) a + S1x256x128.size a ≤ S16x256x128.size a
  inb_S16x256x128_S1x256x128_13_0_0 : ∀ a, (![13, 0, 0] : Fin 3 → Nat) a + S1x256x128.size a ≤ S16x256x128.size a
  inb_S16x256x128_S1x256x128_14_0_0 : ∀ a, (![14, 0, 0] : Fin 3 → Nat) a + S1x256x128.size a ≤ S16x256x128.size a
  inb_S16x256x128_S1x256x128_15_0_0 : ∀ a, (![15, 0, 0] : Fin 3 → Nat) a + S1x256x128.size a ≤ S16x256x128.size a
  concatenates_S1x128_S1x128_S1x128_S1x128_S1x128_S1x128_S1x128_S1x128_S1x128_S1x128_S1x128_S1x128_S1x128_S1x128_S1x128_S1x128_S16x128_d0 : Shape.Concatenates [S1x128, S1x128, S1x128, S1x128, S1x128, S1x128, S1x128, S1x128, S1x128, S1x128, S1x128, S1x128, S1x128, S1x128, S1x128, S1x128] S16x128 0
  inb_S16x128_S16x128_0_0 : ∀ a, (![0, 0] : Fin 2 → Nat) a + S16x128.size a ≤ S16x128.size a
  h_S16x128 : 0 < S16x128.numel
  transposes_S128x128_S128x128_1_0 : S128x128.Transposes [1, 0] S128x128
  bcast_S_S128x128 : S_.BroadcastsInDim S128x128 (![] : Fin 0 → Fin S128x128.rank)
  reducesTo_S128x128_S128_d1 : S128x128.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S_S128x1 : S_.BroadcastsInDim S128x1 (![] : Fin 0 → Fin S128x1.rank)
  shapeCasts_S128x1_S128x1x1 : S128x1.ShapeCasts S128x1x1
  bcast_S_S128x1x1 : S_.BroadcastsInDim S128x1x1 (![] : Fin 0 → Fin S128x1x1.rank)
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  reducesTo_S128x1x1_S128x1_d2 : S128x1x1.ReducesTo [2] S128x1
  reducesTo_S128x1_S_d0_1 : S128x1.ReducesTo [0, 1] S_
  dot_S4096x128_S128x256_S4096x256_1_0_0_1_n_n_wf : DotDims.WF S4096x128 S128x256 S4096x256 [1] [0] [0] [1] [] []
  gather_S128x128_S128x1x1_S128x1_n_1_0_0_1_2_11_wf : GatherDims.WF S128x128 S128x1x1 S128x1 [] [1] [0] [1] [0] 2 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x32x128.size a ≤ S128x32x128.size a
  hwx0_0 : ∀ i : grid0.Coords, EltTy.bits .f32 = 32 ∨ (Rect.block (s := S128x32x128) S128x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x128.size a ≤ S128x256x128.size a
  hwx0_1 : ∀ i : grid0.Coords, EltTy.bits .f32 = 32 ∨ (Rect.block (s := S128x256x128) S16x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S128x128.size a
  hwx0_2 : ∀ i : grid0.Coords, EltTy.bits .f32 = 32 ∨ (Rect.block (s := S128x128) S16x128.size (cc0_transform_2 i) (hinb0_2 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def gather_S128x128_S128x1x1_S128x1_n_1_0_0_1_2_11 : GatherDims S128x128 S128x1x1 S128x1 where
  offsetDims := []
  collapsedSliceDims := [1]
  operandBatchingDims := [0]
  startIndicesBatchingDims := [0]
  startIndexMap := [1]
  indexVectorDim := 2
  sliceSizes := ![1, 1]
  wf := gather_S128x128_S128x1x1_S128x1_n_1_0_0_1_2_11_wf

abbrev win0_0 : Pipeline.Window sig grid0 :=
  Pipeline.Window.ofSpec (Memref.whole main_arg0) S128x32x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x32x128 : Shape := ⟨3, ![128, 32, 128]⟩
abbrev S128x256x128 : Shape := ⟨3, ![128, 256, 128]⟩
abbrev S128x256x128x32 : Shape := ⟨4, ![128, 256, 128, 32]⟩
abbrev S128x128x32x256 : Shape := ⟨4, ![128, 128, 32, 256]⟩
abbrev S_ : Shape := ⟨0, ![]⟩
abbrev S128x128x32 : Shape := ⟨3, ![128, 128, 32]⟩
abbrev S128x128 : Shape := ⟨2, ![128, 128]⟩
abbrev S128 : Shape := ⟨1, ![128]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S128x32x128, .f32⟩
  | .hbm, ⟨1, _⟩ => ⟨S128x256x128, .f32⟩
  | .hbm, ⟨2, _⟩ => ⟨S128x256x128x32, .f32⟩
  | .hbm, ⟨3, _⟩ => ⟨S128x128x32x256, .f32⟩
  | .hbm, ⟨4, _⟩ => ⟨S_, .f32⟩
  | .hbm, ⟨5, _⟩ => ⟨S128x128x32, .f32⟩
  | .hbm, ⟨6, _⟩ => ⟨S_, .f32⟩
  | .hbm, ⟨7, _⟩ => ⟨S128x128, .f32⟩
  | .hbm, ⟨8, _⟩ => ⟨S128, .i32⟩
  | .hbm, ⟨9, _⟩ => ⟨S_, .f32⟩
  | .hbm, ⟨10, _⟩ => ⟨S128x128, .f32⟩
  | .hbm, ⟨11, _⟩ => ⟨S128x128, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128x1, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S_, .f32⟩
  | .hbm, ⟨22, _⟩ => ⟨S128, .f32⟩
  | .hbm, ⟨23, _⟩ => ⟨S128x1, .f32⟩
  | .hbm, ⟨24, _⟩ => ⟨S128x1, .f32⟩
  | .hbm, ⟨25, _⟩ => ⟨S128x128, .f32⟩
  | .hbm, ⟨26, _⟩ => ⟨S128x128, .f32⟩
  | .hbm, ⟨27, _⟩ => ⟨S128x1, .i32⟩
  | .hbm, ⟨28, _⟩ => ⟨S_, .i32⟩
  | .hbm, ⟨29, _⟩ => ⟨S128x1, .i32⟩
  | .hbm, ⟨30, _⟩ => ⟨S128x1, .i1⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x1, .i32⟩
  | .hbm, ⟨35, _⟩ => ⟨S128x1x1, .i32⟩
  | .hbm, ⟨36, _⟩ => ⟨S1, .i32⟩
  | .hbm, ⟨37, _⟩ => ⟨S_, .i32⟩
  | .hbm, ⟨38, _⟩ => ⟨S128x1x1, .i32⟩
  | .hbm, ⟨39, _⟩ => ⟨S128x1x1, .i1⟩
  | .hbm, ⟨40, _⟩ => ⟨S1x1x1, .i32⟩
  | .hbm, ⟨41, _⟩ => ⟨S128x1x1, .i32⟩
  | .hbm, ⟨42, _⟩ => ⟨S128x1x1, .i1⟩
  | .hbm, ⟨43, _⟩ => ⟨S128x1x1, .i1⟩
  | .hbm, ⟨44, _⟩ => ⟨S_, .i1⟩
  | .hbm, ⟨45, _⟩ => ⟨S128x1, .i1⟩
  | .hbm, ⟨46, _⟩ => ⟨S128x1, .f32⟩
  | .hbm, ⟨47, _⟩ => ⟨S_, .f32⟩
  | .hbm, ⟨48, _⟩ => ⟨S128x1, .f32⟩
  | .hbm, ⟨49, _⟩ => ⟨S128x1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S128x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v7 : Ref sig .tc := ⟨.hbm, 26, rfl⟩
abbrev main_v8 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v9 : Ref sig .tc := ⟨.hbm, 49, rfl⟩
abbrev main_cst_2 : Ref sig .tc := ⟨.hbm, 50, rfl⟩
abbrev main_v10 : Ref sig .tc := ⟨.hbm, 51, rfl⟩
abbrev main_cst_3 : Ref sig .tc := ⟨.hbm, 52, rfl⟩
abbrev main_v11 : Ref sig .tc := ⟨.hbm, 53, rfl⟩
abbrev main_v12 : Ref sig .tc := ⟨.hbm, 54, rfl⟩

abbrev nD : Nat := 1
abbrev τ : Topo := Topo.v7x

variable {F : FTy → Type} [FloatOps F]

class Facts₀ : Prop where
  transposes_S128x256x128x32_S128x128x32x256_2_0_3_1 : S128x256x128x32.Transposes [2, 0, 3, 1] S128x128x32x256
  reducesTo_S128x128x32x256_S128x128x32_d3 : S128x128x32x256.ReducesTo [3] S128x128x32
  h_S_ : 0 < S_.numel
  reducesTo_S128x128x32_S128x128_d2 : S128x128x32.ReducesTo [2] S128x128
  bcast_S_S128x128 : S_.BroadcastsInDim S128x128 (![] : Fin 0 → Fin S128x128.rank)
  reducesTo_S128x128_S128_d1 : S128x128.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S_S128x1 : S_.BroadcastsInDim S128x1 (![] : Fin 0 → Fin S128x1.rank)
  shapeCasts_S128x1_S128x1x1 : S128x1.ShapeCasts S128x1x1
  bcast_S_S128x1x1 : S_.BroadcastsInDim S128x1x1 (![] : Fin 0 → Fin S128x1x1.rank)
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  reducesTo_S128x1x1_S128x1_d2 : S128x1x1.ReducesTo [2] S128x1
  reducesTo_S128x1_S_d0_1 : S128x1.ReducesTo [0, 1] S_
  dot_S128x256x128_S128x32x128_S128x256x128x32_2_2_01_01_n_n_wf : DotDims.WF S128x256x128 S128x32x128 S128x256x128x32 [2] [2] [0, 1] [0, 1] [] []
  gather_S128x128_S128x1x1_S128x1_n_1_0_0_1_2_11_wf : GatherDims.WF S128x128 S128x1x1 S128x1 [] [1] [0] [1] [0] 2 ![1, 1]

variable [Facts₀]

def dot_S128x256x128_S128x32x128_S128x256x128x32_2_2_01_01_n_n : DotDims S128x256x128 S128x32x128 S128x256x128x32 where
  lhsContracting := [2]
  rhsContracting := [2]
  lhsNonContracting := [0, 1]
  rhsNonContracting := [0, 1]
  lhsBatch := []
  rhsBatch := []
  wf := dot_S128x256x128_S128x32x128_S128x256x128x32_2_2_01_01_n_n_wf
def gather_S128x128_S128x1x1_S128x1_n_1_0_0_1_2_11 : GatherDims S128x128 S128x1x1 S128x1 where
  offsetDims := []
  collapsedSliceDims := [1]
  operandBatchingDims := [0]
  startIndicesBatchingDims := [0]
  startIndexMap := [1]
  indexVectorDim := 2
  sliceSizes := ![1, 1]
  wf := gather_S128x128_S128x1x1_S128x1_n_1_0_0_1_2_11_wf

class Facts : Prop extends Facts₀ where

variable [Facts]
-- ==== Proof.Spec.lean ====
/-
  The score matrix both programs compute, as one function of the two argument arrays.

  For a query b (32 tokens of 128 coordinates) and a document c (256 tokens of 128 coordinates):
  the similarity of query token n and document token s is the inner product of their coordinates;
  each query token keeps its best document token (a maximum over s, taken from minus infinity);
  the score of the pair (b, c) is the sum over the query's tokens of those maxima.

  Everything is read on the extended reals, where sums and maxima are commutative and associative,
  so the order in which a program walks n, s or the coordinates does not matter, and neither does
  the side on which each factor of a product stands.
-/
import Idealize.ShloMosaic.PureOps.Ideal
import Idealize.ShloMosaic.Lib.ValueIdx

noncomputable section

namespace Cert.MaxSim

open Idealize.ShloMosaic Idealize.ShloMosaic.ValueIdx

/-- The queries: 128 queries of 32 tokens of 128 coordinates. -/
abbrev QShape : Shape := ⟨3, ![128, 32, 128]⟩
/-- The documents: 128 documents of 256 tokens of 128 coordinates. -/
abbrev DShape : Shape := ⟨3, ![128, 256, 128]⟩
/-- The score matrix, queries by documents. -/
abbrev SShape : Shape := ⟨2, ![128, 128]⟩

/-- Minus infinity, as both programs write it. -/
abbrev negInf : EReal := Ideal.ofBits .f32 0xFF800000#32

/-- The inner product of query b's token n and document c's token s. -/
def sim (q : QShape.Idx → EReal) (d : DShape.Idx → EReal) (b c : Fin 128) (n : Fin 32) (s : Fin 256) : EReal :=
  ∑ k : Fin 128, q (ix3 b n k) * d (ix3 c s k)

/-- Query token n's best similarity among document c's tokens. -/
def best (q : QShape.Idx → EReal) (d : DShape.Idx → EReal) (b c : Fin 128) (n : Fin 32) : EReal :=
  (Finset.univ : Finset (Fin 256)).fold max negInf (fun s => sim q d b c n s)

/-- The score of query b against document c. -/
def score (q : QShape.Idx → EReal) (d : DShape.Idx → EReal) (b c : Fin 128) : EReal :=
  ∑ n : Fin 32, best q d b c n

/-- The score matrix: entry (b, c) is the score of query b against document c. -/
def scores (q : QShape.Idx → EReal) (d : DShape.Idx → EReal) : SShape.Idx → EReal :=
  fun i => score q d (i 0) (i 1)

theorem scores_apply (q : QShape.Idx → EReal) (d : DShape.Idx → EReal) (b c : Fin 128) :
    scores q d (ix2 b c) = score q d b c := rfl

end Cert.MaxSim

end
-- ==== Proof.RefScores.lean ====
/-
  The reference's score matrix is the specification's.

  The reference contracts document coordinates against query coordinates (a four-axis array indexed by document,
  document token, query, query token), re-orders the axes to (query, document, query token, document token), takes
  the maximum over the last axis from minus infinity and sums the result over the query tokens from zero. Entry
  (b, c) of what it ends with is therefore the sum over n of the maximum over s of the sum over k of
  doc(c, s, k) · query(b, n, k): the specification's score, with the two factors of each product exchanged.
-/
import proofs.«136430_j9139690406182_2_alg».proof.Proof.RefReadPatched
import proofs.«136430_j9139690406182_2_alg».proof.Proof.Spec

noncomputable section

namespace Cert.MaxSim.Ref

open Cert.ReferenceIdeal Cert.ReferenceIdeal.Gen Cert.ReferenceIdeal.ReadP
open Idealize.ShloMosaic Idealize.ShloMosaic.ValueIdx Cert.MaxSim

/-- The third stage (the maximum over document tokens) at (b, c, n): query token n's best similarity. -/
theorem best_ref (x0 : QShape.Idx → EReal) (x1 : DShape.Idx → EReal) (b c : Fin 128) (n : Fin 32) :
    val_main_v2 (F := Ideal) x0 x1 (ix3 b c n) = best x0 x1 b c n := by
  unfold val_main_v2
  refine (Host.reduce_eq_fold_single (a := 3) (FloatOps.maximumf (F := Ideal) (φ := .f32)) (val_main_v1 (F := Ideal) x0 x1)
    (val_main_cst (F := Ideal)) reducesTo_S128x128x32x256_S128x128x32_d3 (by decide) h_S_ (ix3 b c n)).trans ?_
  unfold best
  show (Finset.univ : Finset (Fin 256)).fold max negInf _ = _
  refine Finset.fold_congr (fun s _ => ?_)
  show val_main_v1 (F := Ideal) x0 x1 _ = _
  rw [val_main_v1_apply, val_main_v0_apply]
  unfold sim
  refine Finset.sum_congr rfl fun k _ => ?_
  rw [mul_comm]
  refine congrArg₂ (· * ·) (congrArg x0 ?_) (congrArg x1 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- The fourth stage (the sum over query tokens) is the score matrix. -/
theorem scores_ref (x0 : QShape.Idx → EReal) (x1 : DShape.Idx → EReal) :
    val_main_v3 (F := Ideal) x0 x1 = scores x0 x1 := by
  funext i
  obtain ⟨b, c, rfl⟩ : ∃ (b : Fin 128) (c : Fin 128), i = ix2 b c := ⟨i 0, i 1, eq_ix2 i⟩
  rw [val_main_v3_apply, val_main_cst_0_apply, scores_apply]
  show Ideal.ofBits .f32 0x00000000#32 + _ = _
  rw [Ideal.ofBits_zero_f32, zero_add]
  unfold score
  refine Finset.sum_congr rfl fun n _ => ?_
  have e : idx_main_v3 (ix2 b c) n = ix3 b c n :=
    funext fun a => Fin.ext (by match a with | ⟨0, _⟩ => rfl | ⟨1, _⟩ => rfl | ⟨2, _⟩ => rfl)
  rw [e, best_ref]

end Cert.MaxSim.Ref

end
-- ==== Proof.RefTail.lean ====
/-
  What both programs do with the score matrix: the cross-entropy of its rows against the diagonal.

  The scores are multiplied by the constant one; each row is shifted by its maximum, exponentiated, summed, and the
  logarithm of the sum subtracted (a row-wise log-softmax); the diagonal entry of each row is picked out (a gather at the
  row's own number, guarded by an in-range test that substitutes a not-a-number fill); the picked entries are summed,
  divided by 128 and negated. Nothing here is opened: the value proof only needs that both programs apply this ONE
  function to the same score matrix.
-/
import proofs.«136430_j9139690406182_2_alg».proof.Proof.RefReadPatched
import proofs.«136430_j9139690406182_2_alg».proof.Proof.Spec

noncomputable section

namespace Cert.MaxSim.Ref

open Cert.ReferenceIdeal Cert.ReferenceIdeal.Gen Cert.ReferenceIdeal.ReadP
open Idealize.ShloMosaic Cert.MaxSim

/-- The scores times the constant one. -/
def scaled (s : SShape.Idx → EReal) : S128x128.Idx → EReal :=
  mulf (F := Ideal) (φ := .f32) s (val_main_v5 (F := Ideal))

/-- Each row's maximum (taken from minus infinity, then once more against minus infinity). -/
def rowMax (s : SShape.Idx → EReal) : S128.Idx → EReal :=
  maximumf (F := Ideal) (φ := .f32) (val_main_call0_v1 (F := Ideal))
    (Host.reduce (FloatOps.maximumf (F := Ideal) (φ := .f32)) (scaled s) (val_main_call0_cst (F := Ideal)) reducesTo_S128x128_S128_d1 h_S_)

/-- The scaled scores less their row's maximum. -/
def shifted (s : SShape.Idx → EReal) : S128x128.Idx → EReal :=
  subf (F := Ideal) (φ := .f32) (scaled s)
    (broadcastInDim S128x128 ![0, 1] bcast_S128x1_S128x128_0_1 (broadcastInDim S128x1 ![0] bcast_S128_S128x1_0 (rowMax s)))

/-- The row-wise log-softmax of the scaled scores. -/
def logSoftmax (s : SShape.Idx → EReal) : S128x128.Idx → EReal :=
  subf (F := Ideal) (φ := .f32) (shifted s)
    (broadcastInDim S128x128 ![0, 1] bcast_S128x1_S128x128_0_1
      (Host.log (F := Ideal) (φ := .f32) (broadcastInDim S128x1 ![0] bcast_S128_S128x1_0
        (Host.reduceAdd (F := Ideal) (φ := .f32) (Host.exp (F := Ideal) (φ := .f32) (shifted s)) (val_main_call0_cst_1 (F := Ideal)) reducesTo_S128x128_S128_d1 h_S_))))

/-- Each row's diagonal entry (the entry at the row's own number, under the in-range guard). -/
def picked (s : SShape.Idx → EReal) : S128x1.Idx → EReal :=
  select (val_main_call1_v12 (F := Ideal))
    (Host.gather gather_S128x128_S128x1x1_S128x1_n_1_0_0_1_2_11 (logSoftmax s) (val_main_call1_v5 (F := Ideal)))
    (val_main_call1_v14 (F := Ideal))

/-- The loss: minus the mean of the picked entries. -/
def loss (s : SShape.Idx → EReal) : S_.Idx → EReal :=
  Host.negf (F := Ideal) (φ := .f32) (Host.divf (F := Ideal) (φ := .f32)
    (Host.reduceAdd (F := Ideal) (φ := .f32) (picked s) (val_main_cst_2 (F := Ideal)) reducesTo_S128x1_S_d0_1 h_S_)
    (val_main_cst_3 (F := Ideal)))

/-- The reference's last stage is the loss of its score stage. -/
theorem result_ref (x0 : QShape.Idx → EReal) (x1 : DShape.Idx → EReal) :
    val_main_v12 (F := Ideal) x0 x1 = loss (val_main_v3 (F := Ideal) x0 x1) := rfl

end Cert.MaxSim.Ref

end
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.KernelRow.lean ====
/-
  One document's row of scores, as the kernel body computes it.

  The body flattens the query block to a 4096 × 128 matrix (row 32·b + n is token n of query b), multiplies it by the
  transposed 256 × 128 token matrix of ONE document into a zero accumulator, regroups the 4096 rows as 128 × 32, takes
  the maximum over the 256 document tokens from minus infinity, sums over the 32 query tokens from zero, and lays the
  128 sums out as a row. On the extended reals the format changes are the identity, so entry b of that row is
      Σ_n max_s Σ_k query(b, n, k) · doc(s, k).
-/
import proofs.«136430_j9139690406182_2_alg».proof.Proof.Gen.KernelIdeal.Skeleton
import proofs.«136430_j9139690406182_2_alg».proof.Proof.Spec
import proofs.«136430_j9139690406182_2_alg».proof.Proof.LibPlainProduct
import Idealize.ShloMosaic.Lib.Pipeline.Value
import Idealize.ShloMosaic.PureOps.Ideal.Laws

noncomputable section

namespace Cert.MaxSim.Kern

open Cert.KernelIdeal Cert.KernelIdeal.Gen
open Idealize.ShloMosaic Idealize.ShloMosaic.ValueIdx Cert.MaxSim

section AnyInstance

variable {F : FTy → Type} [FloatOps F]

/-- The scores of the 128 queries against one document (its 256 × 128 token matrix `d`, as a one-document block),
    from the flattened query matrix `v2`. -/
def docRow (v2 : FVec F S4096x128 .bf16) (d : Vec F S1x256x128 .f32) : FVec F S1x128 .f32 :=
  shapeCast S1x128
    (multiReduction .add [1] S128
      (multiReduction .maximumf [2] S128x32
        (shapeCast S128x32x256
          (matmul dot_S4096x128_S128x256_S4096x256_1_0_0_1_n_n none v2
            (transpose S128x256 [1, 0] (truncf .bf16 (shapeCast S256x128 d shapeCasts_S1x256x128_S256x128) bitsLt_bf16_f32)
              transposes_S256x128_p1_0_S128x256)
            (constant S4096x256 .f32 0x00000000#32))
          shapeCasts_S4096x256_S128x32x256)
        0xFF800000#32 reduces_S128x32x256_S128x32 (.inl rfl) rfl)
      0x00000000#32 reduces_S128x32_S128 (.inl rfl) rfl)
    shapeCasts_S128_S1x128

end AnyInstance

/-- Row 32·b + n of the flattened query matrix: token n of query b. -/
def row (b : Fin 128) (n : Fin 32) : Fin 4096 :=
  ⟨b.val * 32 + n.val, by have := b.isLt; have := n.isLt; omega⟩

/-! ## The layout steps, each read at an index -/

section Layout

variable {α : Type}

/-- A vector of 128 entries laid out as a row. -/
theorem row_cast (v : S128.Idx → α) (b : Fin 128) :
    shapeCast S1x128 v shapeCasts_S128_S1x128 (ix2 (0 : Fin 1) b) = v (ix1 b) :=
  shapeCast_apply v _ (ix2 (0 : Fin 1) b) (ix1 b) (by
    rw [Shape.rowMajor_val_one, Shape.rowMajor_val_two]; show b.val = 0 * 128 + b.val; omega)

/-- The 4096 product rows regrouped as 128 queries of 32 tokens: (b, n) is row 32·b + n. -/
theorem regroup_cast (v : S4096x256.Idx → α) (b : Fin 128) (n : Fin 32) (s : Fin 256) :
    shapeCast S128x32x256 v shapeCasts_S4096x256_S128x32x256 (ix3 b n s) = v (ix2 (row b n) s) :=
  shapeCast_apply v _ (ix3 b n s) _ (by
    rw [Shape.rowMajor_val_two, Shape.rowMajor_val_three]
    show (b.val * 32 + n.val) * 256 + s.val = (b.val * 32 + n.val) * 256 + s.val; rfl)

/-- The query block flattened: row 32·b + n is token n of query b. -/
theorem flat_cast (v : S128x32x128.Idx → α) (b : Fin 128) (n : Fin 32) (k : Fin 128) :
    shapeCast S4096x128 v shapeCasts_S128x32x128_S4096x128 (ix2 (row b n) k) = v (ix3 b n k) :=
  shapeCast_apply v _ _ (ix3 b n k) (by
    rw [Shape.rowMajor_val_two, Shape.rowMajor_val_three]
    show (b.val * 32 + n.val) * 128 + k.val = (b.val * 32 + n.val) * 128 + k.val; rfl)

/-- A one-document block as its token matrix. -/
theorem doc_cast (v : S1x256x128.Idx → α) (s : Fin 256) (k : Fin 128) :
    shapeCast S256x128 v shapeCasts_S1x256x128_S256x128 (ix2 s k) = v (ix3 (0 : Fin 1) s k) :=
  shapeCast_apply v _ (ix2 s k) (ix3 (0 : Fin 1) s k) (by
    rw [Shape.rowMajor_val_two, Shape.rowMajor_val_three]
    show (0 * 256 + s.val) * 128 + k.val = s.val * 128 + k.val; omega)

/-- The token matrix transposed. -/
theorem doc_transpose (v : S256x128.Idx → α) (k : Fin 128) (s : Fin 256) :
    transpose S128x256 [1, 0] v transposes_S256x128_p1_0_S128x256 (ix2 k s) = v (ix2 s k) :=
  transpose_apply [1, 0] v _ (ix2 k s) (ix2 s k) (fun b => match b with | ⟨0, _⟩ => rfl | ⟨1, _⟩ => rfl)

end Layout

/-! ## The two reductions and the product, each read at an entry of an arbitrary operand -/

/-- Putting query token n back into (b) gives (b, n). -/
theorem lift_token (b : Fin 128) (n : Fin 32) :
    (reduces_S128x32_S128 : S128x32.Reduces [1] S128).lift (ix1 b) n = ix2 b n :=
  funext fun a => Fin.ext (by match a with | ⟨0, _⟩ => rfl | ⟨1, _⟩ => rfl)

/-- Putting document token s back into (b, n) gives (b, n, s). -/
theorem lift_doc (b : Fin 128) (n : Fin 32) (s : Fin 256) :
    (reduces_S128x32x256_S128x32 : S128x32x256.Reduces [2] S128x32).lift (ix2 b n) s = ix3 b n s :=
  funext fun a => Fin.ext (by match a with | ⟨0, _⟩ => rfl | ⟨1, _⟩ => rfl | ⟨2, _⟩ => rfl)

/-- The sum over the query's tokens, from zero, at query b. -/
theorem sum_tokens (g : FVec Ideal S128x32 .f32) (b : Fin 128) :
    multiReduction (F := Ideal) .add [1] S128 g 0x00000000#32 reduces_S128x32_S128 (.inl rfl) rfl (ix1 b)
      = ∑ n : Fin 32, g (ix2 b n) := by
  refine (Ideal.multiReduction_add_single g 0x00000000#32 reduces_S128x32_S128 (.inl rfl) rfl (ix1 b)).trans ?_
  show ∑ n : Fin 32, _ = _
  exact Finset.sum_congr rfl fun n _ => congrArg g (lift_token b n)

/-- The maximum over the document's tokens, from minus infinity, at (b, n). -/
theorem max_docs (g : FVec Ideal S128x32x256 .f32) (b : Fin 128) (n : Fin 32) :
    multiReduction (F := Ideal) .maximumf [2] S128x32 g 0xFF800000#32 reduces_S128x32x256_S128x32 (.inl rfl) rfl (ix2 b n)
      = (Finset.univ : Finset (Fin 256)).fold max negInf (fun s => g (ix3 b n s)) := by
  refine (Ideal.multiReduction_maximumf_single g 0xFF800000#32 reduces_S128x32x256_S128x32 (.inl rfl) rfl (ix2 b n)).trans ?_
  show (Finset.univ : Finset (Fin 256)).fold max negInf _ = _
  exact Finset.fold_congr fun s _ => congrArg g (lift_doc b n s)

/-- The matrix unit accumulating into zero: entry (r, s) of the 4096 × 256 product. -/
theorem product_apply (v2 : FVec Ideal S4096x128 .bf16) (w : FVec Ideal S128x256 .bf16) (r : Fin 4096) (s : Fin 256) :
    matmul (F := Ideal) dot_S4096x128_S128x256_S4096x256_1_0_0_1_n_n none v2 w
        (constant (F := Ideal) S4096x256 .f32 0x00000000#32) (ix2 r s)
      = ∑ k : Fin 128, v2 (ix2 r k) * w (ix2 k s) :=
  Cert.Lib.PlainProduct.matmul_zero_apply (d := dot_S4096x128_S128x256_S4096x256_1_0_0_1_n_n)
    ⟨rfl, rfl, rfl, rfl, rfl, rfl⟩ rfl rfl none v2 w r s

/-! ## The row at an entry -/

/-- Entry b of one document's row, from any flattened query matrix: the sum over the query's tokens of the best
    product-matrix entry among the document's tokens. -/
theorem docRow_apply (v2 : FVec Ideal S4096x128 .bf16) (d : Vec Ideal S1x256x128 .f32) (b : Fin 128) :
    docRow (F := Ideal) v2 d (ix2 (0 : Fin 1) b)
      = ∑ n : Fin 32, (Finset.univ : Finset (Fin 256)).fold max negInf
          (fun s => ∑ k : Fin 128, v2 (ix2 (row b n) k) * d (ix3 (0 : Fin 1) s k)) := by
  unfold docRow
  refine (row_cast _ b).trans ?_
  refine (sum_tokens _ b).trans ?_
  refine Finset.sum_congr rfl fun n _ => ?_
  refine (max_docs _ b n).trans ?_
  refine Finset.fold_congr fun s _ => ?_
  refine (regroup_cast _ b n s).trans ?_
  refine (product_apply v2 _ (row b n) s).trans ?_
  refine Finset.sum_congr rfl fun k _ => ?_
  exact congrArg (fun y => v2 (ix2 (row b n) k) * y) ((doc_transpose _ k s).trans (doc_cast d s k))

/-- The body's flattened query matrix at row 32·b + n: token n of query b (the format change is the identity). -/
theorem flat_query (q : Vec Ideal S128x32x128 .f32) (b : Fin 128) (n : Fin 32) (k : Fin 128) :
    k0_pay2 (F := Ideal) q (ix2 (row b n) k) = q (ix3 b n k) := by
  unfold k0_pay2
  exact flat_cast _ b n k

/-- Entry b of one document's row as the body computes it from the query block. -/
theorem docRow_query (q : Vec Ideal S128x32x128 .f32) (d : Vec Ideal S1x256x128 .f32) (b : Fin 128) :
    docRow (F := Ideal) (k0_pay2 q) d (ix2 (0 : Fin 1) b)
      = ∑ n : Fin 32, (Finset.univ : Finset (Fin 256)).fold max negInf
          (fun s => ∑ k : Fin 128, q (ix3 b n k) * d (ix3 (0 : Fin 1) s k)) := by
  refine (docRow_apply (k0_pay2 q) d b).trans ?_
  refine Finset.sum_congr rfl fun n _ => Finset.fold_congr fun s _ => Finset.sum_congr rfl fun k _ => ?_
  exact congrArg (fun y => y * d (ix3 (0 : Fin 1) s k)) (flat_query q b n k)

end Cert.MaxSim.Kern

end
-- ==== Proof.KernelBlock.lean ====
/-
  What the body leaves in the output block: sixteen documents' rows of scores.

  The body loads the whole query block and, one after the other, each of the sixteen documents of the document block;
  from each it computes that document's row of 128 scores and stacks the sixteen rows into the 16 × 128 output block,
  which it stores whole. Entry (r, b) of the block is therefore the score of query b against the block's document r:
      Σ_n max_s Σ_k query(b, n, k) · doc(r, s, k).
-/
import proofs.«136430_j9139690406182_2_alg».proof.Proof.Gen.KernelIdeal.Frame
import proofs.«136430_j9139690406182_2_alg».proof.Proof.KernelRow

noncomputable section

namespace Cert.MaxSim.Kern

open Cert.KernelIdeal Cert.KernelIdeal.Gen
open Idealize.ShloMosaic Idealize.ShloMosaic.TcCoe Idealize.ShloMosaic.ValueIdx Cert.MaxSim

section AnyInstance

variable {F : FTy → Type} [FloatOps F]

/-- Document r of a sixteen-document block lies inside the block. -/
theorem doc_inb (r : Fin 16) : ∀ a, (![r.val, 0, 0] : Fin 3 → Nat) a + S1x256x128.size a ≤ S16x256x128.size a := fun a => by
  match a with
  | ⟨0, _⟩ => show r.val + 1 ≤ 16; have := r.isLt; omega
  | ⟨1, _⟩ => show 0 + 256 ≤ 256; omega
  | ⟨2, _⟩ => show 0 + 128 ≤ 128; omega

/-- Document r of a sixteen-document block, as a one-document block. -/
def docOf (x1 : Vec F S16x256x128 .f32) (r : Fin 16) : Vec F S1x256x128 .f32 :=
  View.ld x1 (Rect.unit (s := S16x256x128) ![r.val, 0, 0] S1x256x128.size (doc_inb r))

/-- Token s, coordinate k of document r of the block. -/
theorem docOf_apply (x1 : Vec F S16x256x128 .f32) (r : Fin 16) (s : Fin 256) (k : Fin 128) :
    docOf x1 r (ix3 (0 : Fin 1) s k) = x1 (ix3 r s k) := by
  show x1 _ = x1 _
  refine congrArg x1 (funext fun a => Fin.ext ?_)
  match a with
  | ⟨0, _⟩ => show r.val + 1 * 0 = r.val; omega
  | ⟨1, _⟩ => show 0 + 1 * s.val = s.val; omega
  | ⟨2, _⟩ => show 0 + 1 * k.val = k.val; omega

theorem zeros2 : (![0, 0] : Fin 2 → Nat) = fun _ => 0 := funext fun a => by fin_cases a <;> rfl
theorem zeros3 : (![0, 0, 0] : Fin 3 → Nat) = fun _ => 0 := funext fun a => by fin_cases a <;> rfl

/-- The sixteen rows the body stacks: row r is document r's row of scores. -/
def rowsOf (x0 : Vec F S128x32x128 .f32) (x1 : Vec F S16x256x128 .f32) (r : Fin 16) : S1x128.Idx → F .f32 :=
  docRow (k0_pay2 x0) (docOf x1 r)

/-- Sixteen rows of 128 stack to a 16 × 128 block. -/
theorem rows_stack (f : Fin 16 → (S1x128.Idx → F .f32)) :
    Shape.Concatenates ((List.ofFn fun r : Fin 16 => (⟨S1x128, f r⟩ : (s : Shape) × (s.Idx → F .f32))).map (·.1)) S16x128 0 :=
  concatenates_S1x128_S1x128_S1x128_S1x128_S1x128_S1x128_S1x128_S1x128_S1x128_S1x128_S1x128_S1x128_S1x128_S1x128_S1x128_S1x128_S16x128_d0

/-- The output block after the body: the sixteen documents' rows, stacked. -/
theorem block_rows (x0 : Vec F S128x32x128 .f32) (x1 : Vec F S16x256x128 .f32) :
    out0_2 x0 x1 = concatenate S16x128 0 (List.ofFn fun r : Fin 16 => (⟨S1x128, rowsOf x0 x1 r⟩ : (s : Shape) × (s.Idx → F .f32)))
      (rows_stack (rowsOf x0 x1)) := by
  unfold out0_2
  rw [View.canon_unit_zero zeros2]
  simp only [View.ld_unit_zero (S := S128x32x128) zeros3]
  rfl

end AnyInstance

/-- Entry (r, b) of the output block: the score of query b against document r of the block. -/
theorem block_apply (x0 : Vec Ideal S128x32x128 .f32) (x1 : Vec Ideal S16x256x128 .f32) (r : Fin 16) (b : Fin 128) :
    out0_2 (F := Ideal) x0 x1 (ix2 r b)
      = ∑ n : Fin 32, (Finset.univ : Finset (Fin 256)).fold max negInf
          (fun s => ∑ k : Fin 128, x0 (ix3 b n k) * x1 (ix3 r s k)) := by
  rw [block_rows]
  refine (concatenate_ofFn_unit_apply (t := S16x128) (s₁ := S1x128) 0 (rowsOf x0 x1) (rows_stack (rowsOf x0 x1)) rfl rfl
    (ix2 r b) r rfl (ix2 (0 : Fin 1) b) (fun a ha => ?_)).trans ?_
  · match a with
    | ⟨0, _⟩ => exact absurd rfl ha
    | ⟨1, _⟩ => rfl
  · refine (docRow_query x0 (docOf x1 r) b).trans ?_
    refine Finset.sum_congr rfl fun n _ => Finset.fold_congr fun s _ => Finset.sum_congr rfl fun k _ => ?_
    exact congrArg (fun y => x0 (ix3 b n k) * y) (docOf_apply x1 r s k)

end Cert.MaxSim.Kern

end
-- ==== Proof.KernelScores.lean ====
/-
  The region's output array: the score matrix, documents by queries.

  The grid has 8 points. At point t the pipeline stages the whole query array (its block never moves), documents
  16·t … 16·t + 15 of the document array, and rows 16·t … 16·t + 15 of the 128 × 128 output array. The body leaves in the
  output block the scores of the 128 queries against the block's 16 documents, so row 16·t + r of the output array ends
  holding the scores against document 16·t + r; the 8 blocks tile the array, so after the region entry (c, b) of it is
  the score of query b against document c.
-/
import proofs.«136430_j9139690406182_2_alg».proof.Proof.Gen.KernelIdeal.Frame
import proofs.«136430_j9139690406182_2_alg».proof.Proof.KernelBlock
import Idealize.ShloMosaic.Lib.Pipeline.Value

noncomputable section

namespace Cert.MaxSim.Kern

open Cert.KernelIdeal Cert.KernelIdeal.Gen
open Idealize.ShloMosaic Idealize.ShloMosaic.TcCoe Idealize.ShloMosaic.ValueIdx Idealize.SL.Sem Cert.MaxSim
open Idealize.ShloMosaic.Pipeline (Dat)

/-- The output array as one function of the argument arrays: entry (c, b) is the score of query b against document c. -/
def regionOut (q : QShape.Idx → EReal) (d : DShape.Idx → EReal) : S128x128.Idx → EReal :=
  fun i => score q d (i 1) (i 0)

theorem regionOut_apply (q : QShape.Idx → EReal) (d : DShape.Idx → EReal) (c b : Fin 128) :
    regionOut q d (ix2 c b) = score q d b c := rfl

/-- An output block entry is the output array's entry, once the block's inputs are the arrays' entries: the query block
    is the query array, and the block's document r is the array's document c. -/
theorem block_entry (x0 : Vec Ideal S128x32x128 .f32) (x1 : Vec Ideal S16x256x128 .f32)
    (q : QShape.Idx → EReal) (d : DShape.Idx → EReal) (r : Fin 16) (b c : Fin 128)
    (hq : ∀ (n : Fin 32) (k : Fin 128), x0 (ix3 b n k) = q (ix3 b n k))
    (hd : ∀ (s : Fin 256) (k : Fin 128), x1 (ix3 r s k) = d (ix3 c s k)) :
    out0_2 (F := Ideal) x0 x1 (ix2 r b) = regionOut q d (ix2 c b) := by
  rw [block_apply, regionOut_apply]
  unfold score best sim
  refine Finset.sum_congr rfl fun n _ => Finset.fold_congr fun s _ => Finset.sum_congr rfl fun k _ => ?_
  rw [hq n k, hd s k]

variable (m : (ℓ : Loc nD τ sig) → Buf (Elt Ideal) ℓ)

/-- The printed index maps, decided over the grid: the query window stays at block 0; the document window and the
    output window are at block t along their first axis and at block 0 along the others. -/
theorem idx_facts : ∀ t : Fin cfg0.N,
    win0_0.index t (0 : Fin 3) = 0 ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The query block at any point is the query array. -/
theorem query_block (c : Dev nD) (t : Fin cfg0.N) (b : Fin 128) (n : Fin 32) (k : Fin 128) :
    iblk m c 0 t (ix3 b n k) = V m c main_arg0 (ix3 b n k) := by
  show V m c main_arg0 (((cfg0.win 0).blk t).view.emb (ix3 b n k)) = V m c main_arg0 (ix3 b n k)
  obtain ⟨e0, e1, e2, -⟩ := idx_facts t
  refine congrArg (V m c main_arg0) (funext fun a => Fin.ext ?_)
  match a with
  | ⟨0, _⟩ => show win0_0.index t (0 : Fin 3) * 128 + 1 * b.val = b.val; omega
  | ⟨1, _⟩ => show win0_0.index t (1 : Fin 3) * 32 + 1 * n.val = n.val; omega
  | ⟨2, _⟩ => show win0_0.index t (2 : Fin 3) * 128 + 1 * k.val = k.val; omega

/-- Document r of the document block at point t is document 16·t + r of the document array. -/
theorem doc_block (c : Dev nD) (t : Fin cfg0.N) (r : Fin 16) (i : Fin 128) (hi : i.val = t.val * 16 + r.val)
    (s : Fin 256) (k : Fin 128) :
    iblk m c 1 t (ix3 r s k) = V m c main_arg1 (ix3 i s k) := by
  show V m c main_arg1 (((cfg0.win 1).blk t).view.emb (ix3 r s k)) = V m c main_arg1 (ix3 i s k)
  obtain ⟨-, -, -, e3, e4, e5, -⟩ := idx_facts t
  refine congrArg (V m c main_arg1) (funext fun a => Fin.ext ?_)
  match a with
  | ⟨0, _⟩ => show win0_1.index t (0 : Fin 3) * 16 + 1 * r.val = i.val; omega
  | ⟨1, _⟩ => show win0_1.index t (1 : Fin 3) * 256 + 1 * s.val = s.val; omega
  | ⟨2, _⟩ => show win0_1.index t (2 : Fin 3) * 128 + 1 * k.val = k.val; omega

/-- What point t writes back is block t of the output array's function of the argument arrays. -/
theorem flushed_eq (c : Dev nD) (t : Fin cfg0.N) :
    (dats m 0 c).flushed 2 t
      = ((cfg0.win 2).blk t).view.read (Elt Ideal) (regionOut (V m c main_arg0) (V m c main_arg1)) := by
  show (cfg0.win 2).cut (grid0.coords t) ((dats m 0 c).after 2 t) = _
  rw [after0_2]
  funext j
  obtain ⟨-, -, -, -, -, -, e6, e7⟩ := idx_facts t
  have h8 : t.val < 8 := lt_of_lt_of_eq t.isLt N_0
  have hr : (j 0).val < 16 := (j 0).isLt
  have hb : (j 1).val < 128 := (j 1).isLt
  have hj : j = ix2 (⟨(j 0).val, hr⟩ : Fin 16) (⟨(j 1).val, hb⟩ : Fin 128) :=
    funext fun a => Fin.ext (by match a with | ⟨0, _⟩ => rfl | ⟨1, _⟩ => rfl)
  have hi : ((cfg0.win 2).blk t).view.emb j
      = ix2 (⟨t.val * 16 + (j 0).val, by omega⟩ : Fin 128) (⟨(j 1).val, hb⟩ : Fin 128) :=
    funext fun a => Fin.ext (by
      match a with
      | ⟨0, _⟩ => show win0_2.index t (0 : Fin 2) * 16 + 1 * (j 0).val = t.val * 16 + (j 0).val; omega
      | ⟨1, _⟩ => show win0_2.index t (1 : Fin 2) * 128 + 1 * (j 1).val = (j 1).val; omega)
  show out0_2 (iblk m c 0 t) (iblk m c 1 t) j
    = regionOut (V m c main_arg0) (V m c main_arg1) (((cfg0.win 2).blk t).view.emb j)
  rw [hi]
  refine (congrArg (out0_2 (iblk m c 0 t) (iblk m c 1 t)) hj).trans ?_
  exact block_entry (iblk m c 0 t) (iblk m c 1 t) (V m c main_arg0) (V m c main_arg1) _ _ _
    (fun n k => query_block m c t _ n k) (fun s k => doc_block m c t _ _ rfl s k)

/-- An index of the output array is in point t's block iff each coordinate is in the block's range on its axis. -/
theorem mem_blk (t : Fin cfg0.N) (i : S128x128.Idx) :
    i ∈ ((cfg0.win 2).blk t).view.set
      ↔ ∀ a : Fin 2, win0_2.index t a * S16x128.size a ≤ (i a).val ∧ (i a).val < win0_2.index t a * S16x128.size a + S16x128.size a := by
  show i ∈ ((View.whole main_v0).slice (win0_2.rect t)).set ↔ _
  rw [View.set_slice_whole, Rect.mem_set_unit]
  exact Iff.rfl

/-- The 8 blocks tile the output array: row c is in the block of point c / 16. -/
theorem cover (i : S128x128.Idx) :
    ∃ t : Fin cfg0.N, (cfg0.win 2).flush t = true ∧ i ∈ ((cfg0.win 2).blk t).view.set := by
  have hi0 : (i 0).val < 128 := (i 0).isLt
  have hi1 : (i 1).val < 128 := (i 1).isLt
  have ht : (i 0).val / 16 < cfg0.N := by show (i 0).val / 16 < grid0.N; rw [N_0]; omega
  obtain ⟨-, -, -, -, -, -, e6, e7⟩ := idx_facts ⟨(i 0).val / 16, ht⟩
  have e6' : win0_2.index ⟨(i 0).val / 16, ht⟩ (0 : Fin 2) = (i 0).val / 16 := e6
  refine ⟨⟨(i 0).val / 16, ht⟩, flush0_2 _, ?_⟩
  rw [mem_blk]
  intro a
  match a with
  | ⟨0, _⟩ =>
    show win0_2.index ⟨(i 0).val / 16, ht⟩ (0 : Fin 2) * 16 ≤ (i 0).val
      ∧ (i 0).val < win0_2.index ⟨(i 0).val / 16, ht⟩ (0 : Fin 2) * 16 + 16
    omega
  | ⟨1, _⟩ =>
    show win0_2.index ⟨(i 0).val / 16, ht⟩ (1 : Fin 2) * 128 ≤ (i 1).val
      ∧ (i 1).val < win0_2.index ⟨(i 0).val / 16, ht⟩ (1 : Fin 2) * 128 + 128
    omega

/-- The output array after the region: entry (c, b) is the score of query b against document c. -/
theorem region_out (c : Dev nD) :
    (dats m 0 c).arrAt 2 cfg0.N
      = regionOut (m ((c : Thread nD τ).loc main_arg0)) (m ((c : Thread nD τ).loc main_arg1)) :=
  (dats m 0 c).arrAt_eq_of_cover 2 (regionOut (V m c main_arg0) (V m c main_arg1)) (fun t _ => flushed_eq m c t) cover

end Cert.MaxSim.Kern

end
-- ==== Proof.KernelTail.lean ====
/-
  The kernel program's host lines after the region are the loss of the transposed region output.

  After the region @main transposes the region's 128 × 128 output (documents by queries) into the score matrix (queries by
  documents) and then applies, line for line, the same operations the reference applies to its score matrix: the
  multiplication by one, the row-wise log-softmax, the pick of the diagonal, the mean and the negation. Read back from any
  buffer contents `W`, the result buffer therefore holds `Ref.loss` of the transposed contents of the region's output
  buffer. The score matrix is kept as one variable throughout: the chain of operations is compared, never evaluated.
-/
import proofs.«136430_j9139690406182_2_alg».proof.Proof.Gen.KernelIdeal.Frame
import proofs.«136430_j9139690406182_2_alg».proof.Proof.RefTail
import Idealize.ShloMosaic.Lib.StableHlo.Run

noncomputable section

namespace Cert.MaxSim.Kern

open Cert.KernelIdeal Cert.KernelIdeal.Gen
open Idealize.ShloMosaic Idealize.ShloMosaic.TcCoe Idealize.SL.Sem Idealize.ShloMosaic.StableHlo Cert.MaxSim

set_option maxRecDepth 65536 in
set_option maxHeartbeats 2000000 in
/-- From any contents `W`, the five stretches of host operations after the region leave in the result buffer the loss of
    the transpose of what `W` holds in the region's output buffer. -/
theorem tail_eq (W : Valuation τ sig (Elt Ideal)) :
    StableHlo.after (List.flatten [hostOps1, hostOps1_1, hostOps1_2, hostOps1_3, hostOps1_4]) W (Proc.devRef .tc main_v10)
      = Ref.loss (transpose S128x128 [1, 0] (W (Proc.devRef .tc main_v0)) transposes_S128x128_S128x128_1_0) := by
  simp only [hostOps1, hostOps1_1, hostOps1_2, hostOps1_3, hostOps1_4, List.flatten_cons, List.flatten_nil, List.append_nil,
    List.cons_append, List.nil_append]
  after_results_simp
  generalize (transpose S128x128 [1, 0] (W (Proc.devRef .tc main_v0)) transposes_S128x128_S128x128_1_0) = s
  rfl

end Cert.MaxSim.Kern

end
-- ==== Proof.KernelRun.lean ====
/-
  The kernel program's run, read: its result buffer ends holding the loss of the score matrix.

  After the region the output array holds the scores, documents by queries; the first host line after the region
  transposes it into the score matrix (queries by documents), and the remaining lines are the cross-entropy of its rows
  against the diagonal. The argument arrays end as they started.
-/
import proofs.«136430_j9139690406182_2_alg».proof.Proof.KernelScores
import proofs.«136430_j9139690406182_2_alg».proof.Proof.KernelTail

noncomputable section

namespace Cert.MaxSim.Kern

open Cert.KernelIdeal Cert.KernelIdeal.Gen
open Idealize.ShloMosaic Idealize.ShloMosaic.TcCoe Idealize.ShloMosaic.ValueIdx Idealize.SL.Sem Cert.MaxSim

/-- The output array (documents by queries) transposed is the score matrix (queries by documents). -/
theorem transpose_out (q : QShape.Idx → EReal) (d : DShape.Idx → EReal) :
    transpose S128x128 [1, 0] (regionOut q d) transposes_S128x128_S128x128_1_0 = scores q d := by
  funext i
  obtain ⟨b, c, rfl⟩ : ∃ (b : Fin 128) (c : Fin 128), i = ix2 b c := ⟨i 0, i 1, eq_ix2 i⟩
  exact transpose_apply [1, 0] (regionOut q d) _ (ix2 b c) (ix2 c b) (fun a => match a with | ⟨0, _⟩ => rfl | ⟨1, _⟩ => rfl)

/-- The result buffer is no array of the pipeline: the region leaves it to the host lines. -/
theorem result_rest : main_v10 ∈ Pipeline.restRefs sig (cfgs 0).spec :=
  Pipeline.mem_restRefs_of main_v10 rfl (fun w => by fin_cases w <;> decide)

variable (m : (ℓ : Loc nD τ sig) → Buf (Elt Ideal) ℓ) (ρ : Dev nD → PrngReg)

/-- What the host lines after the region leave in the result buffer: the loss of the score matrix of the arguments. -/
theorem result_eq (c : Dev nD) :
    Pipeline.afterTail₀ cfgs (dats m) 0 (V0 m) [hostOps1, hostOps1_1, hostOps1_2, hostOps1_3, hostOps1_4] c main_v10
      = Ref.loss (scores (m ((c.tc : Thread nD τ).loc main_arg0)) (m ((c.tc : Thread nD τ).loc main_arg1))) := by
  unfold Pipeline.afterTail₀
  refine (tail_eq _).trans ?_
  refine congrArg Ref.loss ?_
  refine Eq.trans (congrArg (fun x => transpose S128x128 [1, 0] x transposes_S128x128_S128x128_1_0) ?_) (transpose_out _ _)
  exact (Pipeline.withArrays_arr spec0 launch0.win.arr_inj c _ _ 2).trans (region_out m c)

/-- Every weakly fair execution of the kernel program terminates with the result buffer at the loss of the score matrix
    of the argument arrays, and the argument arrays unchanged. -/
theorem run : θ_run defs (onTc (τ := τ) (main (F := Ideal))) ⟨m, fun _ => 0, ρ⟩ fun r => ∀ c : Dev nD,
      r.2.mem ((c.tc : Thread nD τ).loc main_v10)
          = Ref.loss (scores (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v10 result_rest).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.MaxSim.Kern

end
-- ==== Proof.lean ====
/-
  The certificate of a late-interaction retrieval loss.

  Both programs take 128 queries (32 tokens of 128 coordinates each) and 128 documents (256 tokens of 128 coordinates
  each). The score of query b against document c is
      score(b, c) = Σ_n max_s Σ_k query(b, n, k) · doc(c, s, k):
  every query token keeps its best inner product among the document's tokens, and the maxima are summed. The loss is
  the cross-entropy of the rows of the 128 × 128 score matrix against its diagonal (scale by one, row-wise log-softmax,
  pick the diagonal, mean, negate).

  The kernel program computes the scores sixteen documents at a time on a grid of eight points, each point writing a
  16 × 128 block (documents by queries) of an output array which the host then transposes; the reference computes
  the whole four-axis array of inner products at once and reduces it. On the extended reals, where format changes are
  the identity and sums and maxima do not depend on their order, both score matrices are the function above, entry by
  entry (the two factors of each product stand on opposite sides, and multiplication commutes). No law that needs
  finite operands is used, so the precondition is never opened. From the score matrix on, both programs apply the same
  chain of host operations, which is carried as one function and never opened.

  The three frames are the generated frame runs (the reference's is its generated run with the result dropped); the
  idealization rewrote nothing, so its conjunct is trivial.
-/
import proofs.«136430_j9139690406182_2_alg».proof.Defs
import proofs.«136430_j9139690406182_2_alg».proof.Proof.Gen.Kernel
import proofs.«136430_j9139690406182_2_alg».proof.Proof.Gen.Kernel.Skeleton
import proofs.«136430_j9139690406182_2_alg».proof.Proof.Gen.Kernel.Launch
import proofs.«136430_j9139690406182_2_alg».proof.Proof.Gen.Kernel.Points
import proofs.«136430_j9139690406182_2_alg».proof.Proof.Gen.Kernel.Frame
import proofs.«136430_j9139690406182_2_alg».proof.Proof.Gen.KernelIdeal
import proofs.«136430_j9139690406182_2_alg».proof.Proof.Gen.KernelIdeal.Skeleton
import proofs.«136430_j9139690406182_2_alg».proof.Proof.Gen.KernelIdeal.Launch
import proofs.«136430_j9139690406182_2_alg».proof.Proof.Gen.KernelIdeal.Points
import proofs.«136430_j9139690406182_2_alg».proof.Proof.Gen.KernelIdeal.Frame
import proofs.«136430_j9139690406182_2_alg».proof.Proof.Gen.ReferenceIdeal
import proofs.«136430_j9139690406182_2_alg».proof.Proof.Gen.Pre_finite_inputs
import proofs.«136430_j9139690406182_2_alg».proof.Proof.RefReadPatched
import proofs.«136430_j9139690406182_2_alg».proof.Proof.RefScores
import proofs.«136430_j9139690406182_2_alg».proof.Proof.RefTail
import proofs.«136430_j9139690406182_2_alg».proof.Proof.KernelRun
import Idealize.ShloMosaic.Adequacy
import Idealize.ShloMosaic.Init

noncomputable section

namespace Cert.Proof

open Idealize.ShloMosaic Idealize.SL.Sem Cert.MaxSim

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the loss of the score matrix of the
    arguments: the kernel program by its run read through the region and the host lines after it, the reference by its
    run read one operation at a time. -/
theorem algebraic : Cert.algebraic_KernelIdeal_ReferenceIdeal := by
  intro m ρ m' ρ' _ hagree
  refine ⟨fun c => Ref.loss (scores (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), Kern.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v12_eq, Ref.result_ref, Ref.scores_ref, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
